-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) (main_arg2 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S16384 : Shape := ⟨1, ![16384]⟩
abbrev S_ : Shape := ⟨0, ![]⟩
abbrev S16384x1 : Shape := ⟨2, ![16384, 1]⟩
abbrev S1x1 : Shape := ⟨2, ![1, 1]⟩
abbrev S1024x1024 : Shape := ⟨2, ![1024, 1024]⟩
abbrev S1024x1 : Shape := ⟨2, ![1024, 1]⟩
abbrev S1024 : Shape := ⟨1, ![1024]⟩
abbrev S1 : Shape := ⟨1, ![1]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S16384, .i1⟩
  | .hbm, ⟨10, _⟩ => ⟨S16384, .f32⟩
  | .hbm, ⟨11, _⟩ => ⟨S16384x1, .f32⟩
  | .hbm, ⟨12, _⟩ => ⟨S1x1, .f32⟩
  | .hbm, ⟨13, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1, .f32⟩
  | .local _ .vmem, ⟨7, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384 : Shape := ⟨1, ![16384]⟩
abbrev S_ : Shape := ⟨0, ![]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384, .i32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i1⟩
  | .hbm, ⟨28, _⟩ => ⟨S16384, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  reducesTo_S16384x1024_S_d0_1 : S16384x1024.ReducesTo [0, 1] S_
  h_S_ : 0 < S_.numel

variable [Facts₀]

class Facts : Prop extends Facts₀ where

variable [Facts]
-- ==== Proof.FoundPieces.lean ====
/-
  What each control case of the kernel body leaves behind, as values of the body's arithmetic.

  The body keeps a running total in a `[1, 1]` scratch block.  At the first grid point it stores the zero block
  there and then the accumulate step over it; at the other points the accumulate step over what the point before
  left; at the last point it also stores the total divided by the row count into the output block.  The run of
  each case found these stores as pieces; read back, each piece is the payload of the loads it was computed from.
-/
import proofs.«140188_j44805098832397_1_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle point (neither first nor last): the scratch ends at the accumulate step over what it held. -/
theorem scratch_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1024x1024 .f32) (x1 : Vec F S1024x1024 .f32) (x2 : Vec F S1024x1 .f32) (xs0 : Vec F S1x1 .f32) :
    sout0_B_0 c i arg1 harg1 arg2 harg2 arg3 harg3 arg4 harg4 arg5 harg5 hc0 hc1 x0 x1 x2 xs0 = k0_pay3 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread,
    View.ld_unit_zero (S := S1024x1024) hz, View.ld_unit_zero (S := S1024x1) hz, View.ld_unit_zero (S := S1x1) hz]

/-- The last point: the scratch ends at the accumulate step over what it held, -/
theorem scratch_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x1024 .f32) (x1 : Vec F S1024x1024 .f32) (x2 : Vec F S1024x1 .f32) (xs0 : Vec F S1x1 .f32) :
    sout0_C_0 c i arg1 harg1 arg2 harg2 arg3 harg3 arg4 harg4 arg5 harg5 hc0 hc1 x0 x1 x2 xs0 = k0_pay3 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S1024x1024) hz, View.ld_unit_zero (S := S1024x1) hz, View.ld_unit_zero (S := S1x1) hz]

/-- and the output block at the scaling step of that. -/
theorem out_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x1024 .f32) (x1 : Vec F S1024x1024 .f32) (x2 : Vec F S1024x1 .f32) (xs0 : Vec F S1x1 .f32) :
    out0_C_3 c i arg1 harg1 arg2 harg2 arg3 harg3 arg4 harg4 arg5 harg5 hc0 hc1 x0 x1 x2 xs0 = k0_pay1 (k0_pay3 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S1024x1024) hz, View.ld_unit_zero (S := S1024x1) hz, View.ld_unit_zero (S := S1x1) hz]

/-- The first point: the scratch ends at the accumulate step over the zero block the reset stored. -/
theorem scratch_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1024x1024 .f32) (x1 : Vec F S1024x1024 .f32) (x2 : Vec F S1024x1 .f32) :
    sout0_A_0 c i arg1 harg1 arg2 harg2 arg3 harg3 arg4 harg4 arg5 harg5 hc0 hc1 x0 x1 x2 = k0_pay3 x0 x1 x2 (k0_pay2 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S1024x1024) hz, View.ld_unit_zero (S := S1024x1) hz]

/-! ## The same at a grid point: the carried scratch and the output block after each point -/

variable (m : (ℓ : Loc nD τ sig) → Buf (Elt F) ℓ)

/-- After the first point the scratch holds the accumulate step of the point's tiles over the zero block. -/
theorem scratchAt_first (c : Dev nD) (t : Fin cfg0.N) (h0 : t.val % 16 = 0) (h1 : ¬t.val % 16 = 15) :
    (outsAt0 m c t.val t.isLt).2 = k0_pay3 (iblk m c 0 t) (iblk m c 1 t) (iblk m c 2 t) (k0_pay2 (F := F)) := by
  rw [outsAt0_A m c t h0 h1]
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a middle point it holds the accumulate step over what the point before left. -/
theorem scratchAt_middle (c : Dev nD) (t : Fin cfg0.N) (h0 : ¬t.val % 16 = 0) (h1 : ¬t.val % 16 = 15) :
    (outsAt0 m c t.val t.isLt).2 = k0_pay3 (iblk m c 0 t) (iblk m c 1 t) (iblk m c 2 t)
      (outsAt0 m c (t.val - 1) (Nat.lt_of_le_of_lt (Nat.sub_le _ _) t.isLt)).2 := by
  rw [outsAt0_B m c t h0 h1]
  exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _

/-- After the last point likewise, -/
theorem scratchAt_last (c : Dev nD) (t : Fin cfg0.N) (h0 : ¬t.val % 16 = 0) (h1 : t.val % 16 = 15) :
    (outsAt0 m c t.val t.isLt).2 = k0_pay3 (iblk m c 0 t) (iblk m c 1 t) (iblk m c 2 t)
      (outsAt0 m c (t.val - 1) (Nat.lt_of_le_of_lt (Nat.sub_le _ _) t.isLt)).2 := by
  rw [outsAt0_C m c t h0 h1]
  exact scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _

/-- and the output block holds the scaling step of what the scratch then holds. -/
theorem outAt_last (c : Dev nD) (t : Fin cfg0.N) (h0 : ¬t.val % 16 = 0) (h1 : t.val % 16 = 15) :
    (outsAt0 m c t.val t.isLt).1 = k0_pay1 (outsAt0 m c t.val t.isLt).2 := by
  rw [outsAt0_C m c t h0 h1]
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _
    = k0_pay1 (sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _)
  rw [out_C, scratch_C]

end Cert.KernelIdeal.Found

end
-- ==== Proof.MaskedSum.lean ====
/-
  The mathematics both programs compute, over the extended reals.

  One element of the loss: for a probability `o`, a label `l` and a row weight `w`,
      term o l w = -(l · max (log o) (-100) + (1 - l) · max (log (1 + (-o))) (-100)) · w.
  The result is the sum of `term` over all 16384 × 1024 positions (row `i` weighted by `w i`), divided by 16384.

  The two programs differ only in how that sum is grouped: one adds all positions at once; the other walks the
  rows in 16 tiles of 1024 rows, adds each tile's rows (each row first summed along its 1024 columns) and keeps a
  running total.  Addition of extended reals is commutative and associative (with `⊤ + ⊥ = ⊥` it is still a
  commutative monoid), so the groupings agree with no assumption on the inputs:
    * `sum_rows_eq_tiles`: a sum over `Fin 16384` is the double sum over tile `t : Fin 16` and row-in-tile
      `r : Fin 1024` at row `1024 t + r`;
    * `runSum`: the running total after tile `n`, with its two recurrences and its value after the last tile.
-/
import Idealize.ShloMosaic.PureOps.Ideal
import Idealize.ShloMosaic.PureOps.Ideal.Laws
import Idealize.ShloMosaic.Lib.ValueIdx

noncomputable section

namespace Cert.MaskedSum

open Idealize.ShloMosaic Idealize.ShloMosaic.ValueIdx

/-- The clamp of both logarithms, the f32 word of `-100`. -/
abbrev floorLit : EReal := Ideal.ofBits .f32 0xC2C80000#32
/-- The f32 word of `1`. -/
abbrev oneLit : EReal := Ideal.ofBits .f32 0x3F800000#32
/-- The divisor, the f32 word of `16384`. -/
abbrev countLit : EReal := Ideal.ofBits .f32 0x46800000#32

/-- One position's weighted loss. -/
def term (o l w : EReal) : EReal :=
  (-(l * max (Ideal.log o) floorLit + (oneLit - l) * max (Ideal.log1p (-o)) floorLit)) * w

/-- The whole arrays' shapes and one tile's. -/
abbrev Whole : Shape := ⟨2, ![16384, 1024]⟩
abbrev WholeCol : Shape := ⟨2, ![16384, 1]⟩
abbrev Tile : Shape := ⟨2, ![1024, 1024]⟩
abbrev TileCol : Shape := ⟨2, ![1024, 1]⟩

/-- The sum of `term` over one tile: rows `r`, columns `j`, row `r` weighted by the tile's weight column at `r`. -/
def tileSum (o l : Tile.Idx → EReal) (w : TileCol.Idx → EReal) : EReal :=
  ∑ r : Fin 1024, ∑ j : Fin 1024, term (o (ix2 r j)) (l (ix2 r j)) (w (ix2 r (0 : Fin 1)))

/-- The sum of `term` over the whole arrays. -/
def total (O L : Whole.Idx → EReal) (W : WholeCol.Idx → EReal) : EReal :=
  ∑ i : Fin 16384, ∑ j : Fin 1024, term (O (ix2 i j)) (L (ix2 i j)) (W (ix2 i (0 : Fin 1)))

/-- Row `r` of tile `t` is row `1024 t + r` of the whole array. -/
def row (t : Fin 16) (r : Fin 1024) : Fin 16384 := ⟨1024 * t.val + r.val, by omega⟩

/-- A sum over the 16384 rows is the sum over the 16 tiles of the sum over each tile's 1024 rows. -/
theorem sum_rows_eq_tiles {M : Type*} [AddCommMonoid M] (g : Fin 16384 → M) :
    ∑ i : Fin 16384, g i = ∑ t : Fin 16, ∑ r : Fin 1024, g (row t r) := by
  rw [← Fintype.sum_prod_type (f := fun p : Fin 16 × Fin 1024 => g (row p.1 p.2))]
  refine (Fintype.sum_equiv (finProdFinEquiv (m := 16) (n := 1024)) (fun p => g (row p.1 p.2)) g fun p => ?_).symm
  refine congrArg g (Fin.ext ?_)
  show 1024 * p.1.val + p.2.val = p.2.val + 1024 * p.1.val
  omega

/-- So the whole sum is the sum of the tiles' sums, when tile `t`'s arrays are rows `1024 t …` of the whole ones. -/
theorem total_eq_tiles (O L : Whole.Idx → EReal) (W : WholeCol.Idx → EReal)
    (o l : Fin 16 → Tile.Idx → EReal) (w : Fin 16 → TileCol.Idx → EReal)
    (ho : ∀ t r j, o t (ix2 r j) = O (ix2 (row t r) j)) (hl : ∀ t r j, l t (ix2 r j) = L (ix2 (row t r) j))
    (hw : ∀ t r, w t (ix2 r (0 : Fin 1)) = W (ix2 (row t r) (0 : Fin 1))) :
    total O L W = ∑ t : Fin 16, tileSum (o t) (l t) (w t) := by
  unfold total tileSum
  rw [sum_rows_eq_tiles]
  refine Finset.sum_congr rfl fun t _ => Finset.sum_congr rfl fun r _ => Finset.sum_congr rfl fun j _ => ?_
  rw [ho, hl, hw]

/-- The running total of a sequence of tile sums after tile `n`. -/
def runSum (p : ℕ → EReal) (n : ℕ) : EReal := ∑ k ∈ Finset.range (n + 1), p k

theorem runSum_zero (p : ℕ → EReal) : runSum p 0 = p 0 := by
  unfold runSum; rw [Finset.sum_range_one]

theorem runSum_succ (p : ℕ → EReal) (n : ℕ) : runSum p (n + 1) = runSum p n + p (n + 1) := by
  unfold runSum; rw [Finset.sum_range_succ]

/-- After the last of 16 tiles the running total is the sum over the tiles. -/
theorem runSum_last (p : ℕ → EReal) : runSum p 15 = ∑ t : Fin 16, p t.val := by
  unfold runSum; rw [Finset.sum_range]

/-- Subtracting from the zero word is negation. -/
theorem zero_word_sub (x : EReal) : Ideal.ofBits .f32 0x00000000#32 - x = -x := by
  rw [Ideal.ofBits_zero_f32, zero_sub]

/-- Adding to the zero word changes nothing. -/
theorem zero_word_add (x : EReal) : Ideal.ofBits .f32 0x00000000#32 + x = x := by
  rw [Ideal.ofBits_zero_f32, zero_add]

end Cert.MaskedSum

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.TilePayload.lean ====
/-
  What one run of the kernel body computes, as extended reals.

  The body's accumulate step takes a tile of probabilities `x0`, a tile of labels `x1`, the tile's weight column
  `x2` and the running total `s` (a `[1, 1]` block), and stores `s + tileSum x0 x1 x2`: every position's weighted
  loss (`MaskedSum.term`), each row summed along its columns, the row sums kept as a column and summed along the
  rows.  The reset stores the zero block, and the last step stores the running total divided by 16384.
-/
import proofs.«140188_j44805098832397_1_alg».proof.Proof.Gen.KernelIdeal.Skeleton
import proofs.«140188_j44805098832397_1_alg».proof.Proof.MaskedSum
import proofs.«140188_j44805098832397_1_alg».proof.Proof.LibKeepdims
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx
open Cert.KernelIdeal Cert.KernelIdeal.Gen Cert.MaskedSum Cert.LibKeepdims

/-- Summing a column `[1024, 1]` along its rows into one element: the index inserted at row `r` is `(r, 0)`. -/
theorem lift_col (h : Shape.Reduces ⟨2, ![1024, 1]⟩ [0] ⟨1, ![1]⟩) (r : Fin 1024) :
    h.lift (ix1 (0 : Fin 1)) r = ix2 r (0 : Fin 1) := by
  funext a
  match a with
  | ⟨0, _⟩ => exact Fin.ext rfl
  | ⟨1, _⟩ => exact Fin.ext rfl

/-- Summing a tile `[1024, 1024]` along its columns: the index inserted at column `j` of row `r` is `(r, j)`. -/
theorem lift_row (h : Shape.Reduces ⟨2, ![1024, 1024]⟩ [1] ⟨1, ![1024]⟩) (r j : Fin 1024) :
    h.lift (ix1 r) j = ix2 r j := by
  funext a
  match a with
  | ⟨0, _⟩ => exact Fin.ext rfl
  | ⟨1, _⟩ => exact Fin.ext rfl

/-- The accumulate step: the running total plus the tile's sum. -/
theorem pay3_apply (x0 x1 : Vec Ideal S1024x1024 .f32) (x2 : Vec Ideal S1024x1 .f32) (s : Vec Ideal S1x1 .f32) (y : S1x1.Idx) :
    k0_pay3 (F := Ideal) x0 x1 x2 s y = s y + tileSum x0 x1 x2 := by
  unfold k0_pay3
  dsimp only
  -- the outer cast keeps the block; the block is `s` plus the kept total
  refine (congrFun (shapeCast_self _ _) y).trans ?_
  refine (addf_apply _ _ y).trans ?_
  refine congrArg (s y + ·) ?_
  -- the kept total is the column's sum along its rows
  refine (shapeCast_1_11_apply _ _ y).trans ?_
  refine (Ideal.multiReduction_add_single _ _ reduces_S1024x1_S1 _ _ (ix1 (0 : Fin 1))).trans ?_
  unfold tileSum
  refine Finset.sum_congr rfl fun r _ => ?_
  refine (congrArg _ (lift_col reduces_S1024x1_S1 r)).trans ?_
  -- the column at row `r` is the row's sum along its columns
  refine (shapeCast_a_a1_apply _ _ r (0 : Fin 1)).trans ?_
  refine (Ideal.multiReduction_add_single _ _ reduces_S1024x1024_S1024 _ _ (ix1 r)).trans ?_
  refine Finset.sum_congr rfl fun j _ => ?_
  refine (congrArg _ (lift_row reduces_S1024x1024_S1024 r j)).trans ?_
  -- one position: the loss times the row's weight
  refine (mulf_apply _ _ (ix2 r j)).trans ?_
  unfold term
  refine congrArg₂ (· * ·) ?_ ?_
  · show Ideal.ofBits .f32 0x00000000#32 - (x1 (ix2 r j) * max (Ideal.log (x0 (ix2 r j))) floorLit
        + (oneLit - x1 (ix2 r j)) * max (Ideal.log1p (Ideal.ofBits .f32 0x00000000#32 - x0 (ix2 r j))) floorLit) = _
    rw [zero_word_sub, zero_word_sub]
  · refine (broadcastTo_a1_ab_apply _ _ r j).trans ?_
    exact congrFun (shapeCast_self x2 _) _

/-- The reset stores the zero block. -/
theorem pay2_apply (y : S1x1.Idx) : k0_pay2 (F := Ideal) y = Ideal.ofBits .f32 0x00000000#32 := by
  unfold k0_pay2
  exact congrFun (shapeCast_self _ _) y

/-- The last step stores the running total divided by 16384. -/
theorem pay1_apply (v : Vec Ideal S1x1 .f32) (y : S1x1.Idx) : k0_pay1 (F := Ideal) v y = Ideal.div (v y) countLit := rfl

end Cert.KernelIdeal.TileValue

end
-- ==== Proof.TileBlocks.lean ====
/-
  The blocks the pipeline hands the body, read from the whole arrays.

  Grid point `t` (of 16) stages rows `1024 t … 1024 t + 1023` of the probabilities, of the labels and of the weight
  column: element `(r, j)` of a staged tile is element `(1024 t + r, j)` of its array.  The probabilities and labels
  are the launch arguments themselves; the weight column is what the host operations before the call computed from
  the integer argument (`rowWeights`).
-/
import proofs.«140188_j44805098832397_1_alg».proof.Proof.Gen.KernelIdeal.Frame
import proofs.«140188_j44805098832397_1_alg».proof.Proof.MaskedSum
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- A grid point as one of the 16 tiles. -/
abbrev tile (t : Fin cfg0.N) : Fin 16 := t.cast N_0

/-- Where the windows' index maps put point `t`'s block: block row `t`, block column `0`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The staged tile of probabilities at `(r, j)` is the array at `(1024 t + r, j)`. -/
theorem iblk0_apply (c : Dev nD) (t : Fin cfg0.N) (r j : Fin 1024) :
    (iblk m c 0 t : Vec F S1024x1024 .f32) (ix2 r j) = V m c main_arg0 (ix2 (Cert.MaskedSum.row (tile t) r) j) := by
  show V m c main_arg0 (((cfg0.win 0).blk t).view.emb (ix2 r j)) = V m c main_arg0 (ix2 (Cert.MaskedSum.row (tile t) r) j)
  refine congrArg (V m c main_arg0) (funext fun a => Fin.ext ?_)
  match a with
  | ⟨0, _⟩ =>
    show win0_0.index t 0 * 1024 + 1 * r.val = 1024 * t.val + r.val
    rw [(index0 t).1]; omega
  | ⟨1, _⟩ =>
    show win0_0.index t 1 * 1024 + 1 * j.val = j.val
    rw [(index0 t).2]; omega

/-- The staged tile of labels at `(r, j)` is the array at `(1024 t + r, j)`. -/
theorem iblk1_apply (c : Dev nD) (t : Fin cfg0.N) (r j : Fin 1024) :
    (iblk m c 1 t : Vec F S1024x1024 .f32) (ix2 r j) = V m c main_arg1 (ix2 (Cert.MaskedSum.row (tile t) r) j) := by
  show V m c main_arg1 (((cfg0.win 1).blk t).view.emb (ix2 r j)) = V m c main_arg1 (ix2 (Cert.MaskedSum.row (tile t) r) j)
  refine congrArg (V m c main_arg1) (funext fun a => Fin.ext ?_)
  match a with
  | ⟨0, _⟩ =>
    show win0_1.index t 0 * 1024 + 1 * r.val = 1024 * t.val + r.val
    rw [(index1 t).1]; omega
  | ⟨1, _⟩ =>
    show win0_1.index t 1 * 1024 + 1 * j.val = j.val
    rw [(index1 t).2]; omega

/-- The staged weight column at `(r, 0)` is the host's column at `(1024 t + r, 0)`. -/
theorem iblk2_apply (c : Dev nD) (t : Fin cfg0.N) (r : Fin 1024) :
    (iblk m c 2 t : Vec F S1024x1 .f32) (ix2 r (0 : Fin 1)) = V m c main_v6 (ix2 (Cert.MaskedSum.row (tile t) r) (0 : Fin 1)) := by
  show V m c main_v6 (((cfg0.win 2).blk t).view.emb (ix2 r (0 : Fin 1))) = V m c main_v6 (ix2 (Cert.MaskedSum.row (tile t) r) (0 : Fin 1))
  refine congrArg (V m c main_v6) (funext fun a => Fin.ext ?_)
  match a with
  | ⟨0, _⟩ =>
    show win0_2.index t 0 * 1024 + 1 * r.val = 1024 * t.val + r.val
    rw [(index2 t).1]; omega
  | ⟨1, _⟩ =>
    show win0_2.index t 1 * 1 + 1 * 0 = 0
    rw [(index2 t).2]

/-- The row weights as the host computes them from the integer argument: `1` on a row whose source is `0` or `1`,
    `0` elsewhere, kept as a column. -/
def rowWeights (src : (⟨S16384, .i32⟩ : BufTy).Contents (Elt F)) : (⟨S16384x1, .f32⟩ : BufTy).Contents (Elt F) :=
  broadcastInDim S16384x1 ![0] bcast_S16384_S16384x1_0
    (uitofp .f32 (ori (cmpi .eq src (broadcastInDim S16384 ![] bcast_S_S16384 (constantI S_ 32 0#32)))
      (cmpi .eq src (broadcastInDim S16384 ![] bcast_S_S16384 (constantI S_ 32 1#32)))))

/-- The region finds the weight column at the host's value of the integer argument as launched. -/
theorem V_weights (c : Dev nD) :
    (V m c main_v6 : (⟨S16384x1, .f32⟩ : BufTy).Contents (Elt F)) = rowWeights (m ((c.tc : Thread nD τ).loc main_arg2)) := by
  show StableHlo.after hostOps0 (fun b => m (c, b)) (Proc.devRef .tc main_v6) = _
  after_results
  rfl

end Cert.KernelIdeal.Blocks

end
-- ==== Proof.RunningTotal.lean ====
/-
  The carried scratch is the running total of the tiles' sums.

  After grid point `n` the `[1, 1]` scratch block holds `∑ k ≤ n` of the sum of the tile staged at point `k`: at
  the first point the zero block plus the first tile's sum, at every later point what the point before left plus
  that point's tile's sum — by induction on the point.  After the last point this is the sum over all 16 tiles,
  which is the sum over the whole arrays (`MaskedSum.total_eq_tiles`), and the output block holds it divided by the
  row count.
-/
import proofs.«140188_j44805098832397_1_alg».proof.Proof.FoundPieces
import proofs.«140188_j44805098832397_1_alg».proof.Proof.TilePayload
import proofs.«140188_j44805098832397_1_alg».proof.Proof.TileBlocks
import proofs.«140188_j44805098832397_1_alg».proof.Proof.MaskedSum

noncomputable section

namespace Cert.KernelIdeal.Running

open Idealize.ShloMosaic Idealize.ShloMosaic.TcCoe Idealize.SL.Sem Idealize.ShloMosaic.ValueIdx
open Cert.KernelIdeal Cert.KernelIdeal.Gen Cert.MaskedSum
open Cert.KernelIdeal.Found Cert.KernelIdeal.TileValue Cert.KernelIdeal.Blocks

variable (m : (ℓ : Loc nD τ sig) → Buf (Elt Ideal) ℓ)

/-- The sum of the tile staged at point `k` (zero past the grid's 16 points). -/
def tileAt (c : Dev nD) (k : ℕ) : EReal :=
  if h : k < cfg0.N then tileSum (iblk m c 0 ⟨k, h⟩) (iblk m c 1 ⟨k, h⟩) (iblk m c 2 ⟨k, h⟩) else 0

theorem tileAt_of_lt (c : Dev nD) (k : ℕ) (h : k < cfg0.N) :
    tileAt m c k = tileSum (iblk m c 0 ⟨k, h⟩) (iblk m c 1 ⟨k, h⟩) (iblk m c 2 ⟨k, h⟩) := dif_pos h

/-- After point `n` the carried scratch holds the running total of the tiles' sums. -/
theorem scratch_eq (c : Dev nD) : ∀ (n : ℕ) (hn : n < cfg0.N) (y : S1x1.Idx),
    (outsAt0 m c n hn).2 y = runSum (tileAt m c) n
  | 0, hn, y => by
    refine (congrFun (scratchAt_first m c ⟨0, hn⟩ rfl (by dsimp only; omega)) y).trans ?_
    refine (pay3_apply (iblk m c 0 ⟨0, hn⟩) (iblk m c 1 ⟨0, hn⟩) (iblk m c 2 ⟨0, hn⟩) (k0_pay2 (F := Ideal)) y).trans ?_
    rw [pay2_apply, zero_word_add, runSum_zero, tileAt_of_lt m c 0 hn]
  | n + 1, hn, y => by
    have hN : cfg0.N = 16 := N_0
    have h0 : ¬(⟨n + 1, hn⟩ : Fin cfg0.N).val % 16 = 0 := by dsimp only; omega
    have e : (outsAt0 m c (n + 1) hn).2 = k0_pay3 (iblk m c 0 ⟨n + 1, hn⟩) (iblk m c 1 ⟨n + 1, hn⟩) (iblk m c 2 ⟨n + 1, hn⟩)
        (outsAt0 m c n (Nat.lt_of_succ_lt hn)).2 := by
      by_cases h1 : (⟨n + 1, hn⟩ : Fin cfg0.N).val % 16 = 15
      · exact scratchAt_last m c ⟨n + 1, hn⟩ h0 h1
      · exact scratchAt_middle m c ⟨n + 1, hn⟩ h0 h1
    refine (congrFun e y).trans ?_
    refine (pay3_apply (iblk m c 0 ⟨n + 1, hn⟩) (iblk m c 1 ⟨n + 1, hn⟩) (iblk m c 2 ⟨n + 1, hn⟩)
      (outsAt0 m c n (Nat.lt_of_succ_lt hn)).2 y).trans ?_
    rw [scratch_eq c n (Nat.lt_of_succ_lt hn) y, runSum_succ, tileAt_of_lt m c (n + 1) hn]

theorem last_lt : 15 < cfg0.N := by rw [show cfg0.N = 16 from N_0]; decide

/-- After the last point the running total is the sum over the whole arrays as the region found them. -/
theorem runSum_last_eq_total (c : Dev nD) :
    runSum (tileAt m c) 15 = total (V m c main_arg0) (V m c main_arg1) (V m c main_v6) := by
  rw [runSum_last]
  refine Eq.trans ?_ (total_eq_tiles (V m c main_arg0) (V m c main_arg1) (V m c main_v6)
    (fun t => iblk m c 0 (t.cast N_0.symm)) (fun t => iblk m c 1 (t.cast N_0.symm)) (fun t => iblk m c 2 (t.cast N_0.symm))
    (fun t r j => iblk0_apply m c (t.cast N_0.symm) r j) (fun t r j => iblk1_apply m c (t.cast N_0.symm) r j)
    (fun t r => iblk2_apply m c (t.cast N_0.symm) r)).symm
  exact Finset.sum_congr rfl fun (t : Fin 16) _ => tileAt_of_lt m c t.val (lt_of_lt_of_eq t.isLt N_0.symm)

/-- The output block after the last point: the whole sum divided by the row count. -/
theorem out_eq (c : Dev nD) (y : S1x1.Idx) :
    (outsAt0 m c 15 last_lt).1 y = Ideal.div (total (V m c main_arg0) (V m c main_arg1) (V m c main_v6)) countLit := by
  refine (congrFun (outAt_last m c ⟨15, last_lt⟩ (by dsimp only; omega) rfl) y).trans ?_
  refine (pay1_apply (outsAt0 m c 15 last_lt).2 y).trans ?_
  rw [scratch_eq m c 15 last_lt y, runSum_last_eq_total]

end Cert.KernelIdeal.Running

end
-- ==== Proof.OutputBlock.lean ====
/-
  From the output block to the program's result.

  The output array is one `[1, 1]` block whose index never moves; the pipeline writes it back once, after the last
  grid point, so the array ends holding what the body left in the output block at that point.  The host operation
  after the call reshapes that `[1, 1]` array to a scalar.
-/
import proofs.«140188_j44805098832397_1_alg».proof.Proof.Gen.KernelIdeal.Frame
import Idealize.ShloMosaic.Lib.Pipeline.Value
import Idealize.ShloMosaic.Lib.StableHlo.Run

noncomputable section

namespace Cert.KernelIdeal.Output

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem last_lt : 15 < cfg0.N := by rw [show cfg0.N = 16 from N_0]; decide

/-- What the body leaves in the output block at the last point, as contents of the output array. -/
abbrev block (c : Dev nD) : Buf (Elt F) ((c : Thread nD τ).loc main_v7) := (outsAt0 m c 15 last_lt).1

/-- The one write-back, at the last point, writes it: block (0, 0) of the `[1, 1]` array is the array. -/
theorem flushed_eq (c : Dev nD) (t : Fin cfg0.N) (hf : (cfg0.win 3).flush t = true) :
    (dats m 0 c).flushed 3 t = ((cfg0.win 3).blk t).view.read (Elt F) (block m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have hz' : (fun a => win0_3.index t0_15 a * main_v7.ty.shape.size a) = fun _ => 0 :=
    funext fun a => by fin_cases a <;> decide +kernel
  exact (Memref.read_access_unit_zero (Elt F) main_v7 hz' (fun a => by rw [congrFun hz' a]; simp) (block m c)).symm

/-- So the output array ends holding it: the last point's block covers the array. -/
theorem final (c : Dev nD) : (dats m 0 c).arrAt 3 cfg0.N = block m c :=
  (dats m 0 c).arrAt_eq_of_cover 3 (block m c) (flushed_eq m c) fun i =>
    ⟨t0_15, (flush0_3 t0_15).mpr rfl, by
      show i ∈ ((View.whole main_v7).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

/-- The host's reshape after the call reads the output array. -/
theorem tail_eq (c : Dev nD) :
    Pipeline.afterTail₀ cfgs (dats m) 0 (V0 m) [hostOps1] c main_v8 = shapeCast S_ (block m c) shapeCasts_S1x1_S_ := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.tc.devRef main_v7)
      = block m c := (Pipeline.withArrays_arr spec0 launch0.win.arr_inj c _ _ 3).trans (final m c)
  funext i
  exact congrArg (fun x => shapeCast S_ x shapeCasts_S1x1_S_ i) e

/-- The run, read: the scalar result is the reshape of the output block; the arguments end unchanged. -/
theorem run : θ_run defs (onTc (τ := τ) (main (F := F))) ⟨m, fun _ => 0, ρ⟩ fun r => ∀ c : Dev nD,
      r.2.mem ((c.tc : Thread nD τ).loc main_v8) = shapeCast S_ (block m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Output

end
-- ==== Proof.KernelResult.lean ====
/-
  The kernel program's result, as one function of the launch arguments.

  The scalar the program returns is the reshape of the output block, which after the last grid point holds the
  sum of the weighted losses over the whole arrays divided by the row count — the arrays being the two float
  arguments as launched and the weight column the host computed from the integer argument.
-/
import proofs.«140188_j44805098832397_1_alg».proof.Proof.RunningTotal
import proofs.«140188_j44805098832397_1_alg».proof.Proof.OutputBlock

noncomputable section

namespace Cert.KernelIdeal.Result

open Idealize.ShloMosaic Idealize.ShloMosaic.TcCoe Idealize.SL.Sem
open Cert.KernelIdeal Cert.KernelIdeal.Gen Cert.MaskedSum Cert.KernelIdeal.Blocks

variable (m : (ℓ : Loc nD τ sig) → Buf (Elt Ideal) ℓ) (ρ : Dev nD → PrngReg)

/-- The result: the whole sum over the launch arguments, divided by the row count. -/
abbrev value (c : Dev nD) : Buf (Elt Ideal) ((c.tc : Thread nD τ).loc main_v8) :=
  fun _ => Ideal.div (total (m ((c.tc : Thread nD τ).loc main_arg0)) (m ((c.tc : Thread nD τ).loc main_arg1))
    (rowWeights (m ((c.tc : Thread nD τ).loc main_arg2)))) countLit

/-- The reshape of the output block is that scalar. -/
theorem reshape_block (c : Dev nD) : shapeCast S_ (Output.block m c) shapeCasts_S1x1_S_ = value m c := by
  funext i
  refine (Running.out_eq m c _).trans ?_
  rw [V_main_arg0, V_main_arg1, V_weights]

/-- Every weakly fair execution of the kernel program ends with the result at `value` and the arguments unchanged. -/
theorem run : θ_run defs (onTc (τ := τ) (main (F := Ideal))) ⟨m, fun _ => 0, ρ⟩ fun r => ∀ c : Dev nD,
      r.2.mem ((c.tc : Thread nD τ).loc main_v8) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (reshape_block m c), (h c).2⟩) (Output.run (F := Ideal) m ρ)

end Cert.KernelIdeal.Result

end
-- ==== Proof.ReferenceSum.lean ====
/-
  The reference computes the whole sum divided by the row count.

  Its product array holds, at `(i, j)`, the weighted loss `MaskedSum.term` of the probability and the label there
  and of row `i`'s weight (the weight column broadcast along the columns; its clamp is `max (-100) x`, the same
  maximum with the operands the other way round).  Its reduce adds every position to the zero word, and its last
  operation divides by the word of `16384`.
-/
import proofs.«140188_j44805098832397_1_alg».proof.Proof.Gen.ReferenceIdeal.Read
import proofs.«140188_j44805098832397_1_alg».proof.Proof.MaskedSum
import Idealize.ShloMosaic.Lib.ValueIdx

noncomputable section

namespace Cert.ReferenceIdeal.RefValue

open Idealize.ShloMosaic Idealize.ShloMosaic.ValueIdx
open Cert.ReferenceIdeal Cert.ReferenceIdeal.Read Cert.MaskedSum

/-- The weight column broadcast along the columns reads, at `(i, j)`, the column at row `i`. -/
theorem idx18_ix2 (i : Fin 16384) (j : Fin 1024) : idx_main_v18 (ix2 i j) = ix2 i (0 : Fin 1) := by
  funext a
  match a with
  | ⟨0, _⟩ => rfl
  | ⟨1, _⟩ => rfl

/-- One position of the product array is that position's weighted loss. -/
theorem product_apply (x0 x1 : (⟨S16384x1024, .f32⟩ : BufTy).Contents (Elt Ideal)) (x2 : (⟨S16384, .i32⟩ : BufTy).Contents (Elt Ideal))
    (i : Fin 16384) (j : Fin 1024) :
    val_main_v19 (F := Ideal) x0 x1 x2 (ix2 i j)
      = term (x0 (ix2 i j)) (x1 (ix2 i j)) (val_main_v17 (F := Ideal) x2 (ix2 i (0 : Fin 1))) := by
  show val_main_v10 (F := Ideal) x0 x1 (ix2 i j) * val_main_v18 (F := Ideal) x2 (ix2 i j) = _
  unfold term
  refine congrArg₂ (· * ·) ?_ ?_
  · show -(x1 (ix2 i j) * max floorLit (Ideal.log (x0 (ix2 i j)))
        + (oneLit - x1 (ix2 i j)) * max floorLit (Ideal.log1p (-(x0 (ix2 i j))))) = _
    rw [max_comm floorLit, max_comm floorLit]
  · rw [val_main_v18_apply, idx18_ix2]

/-- The reduce's result is the whole sum. -/
theorem sum_apply (x0 x1 : (⟨S16384x1024, .f32⟩ : BufTy).Contents (Elt Ideal)) (x2 : (⟨S16384, .i32⟩ : BufTy).Contents (Elt Ideal))
    (i : S_.Idx) : val_main_v20 (F := Ideal) x0 x1 x2 i = total x0 x1 (val_main_v17 (F := Ideal) x2) := by
  rw [val_main_v20_apply, sum_idx2]
  show Ideal.ofBits .f32 0x00000000#32 + _ = _
  rw [zero_word_add]
  unfold total
  exact Finset.sum_congr rfl fun a _ => Finset.sum_congr rfl fun b _ => product_apply x0 x1 x2 a b

/-- The reference's result: the whole sum divided by the row count. -/
theorem result_eq (x0 x1 : (⟨S16384x1024, .f32⟩ : BufTy).Contents (Elt Ideal)) (x2 : (⟨S16384, .i32⟩ : BufTy).Contents (Elt Ideal)) :
    val_main_v21 (F := Ideal) x0 x1 x2 = fun _ => Ideal.div (total x0 x1 (val_main_v17 (F := Ideal) x2)) countLit := by
  funext i
  show Ideal.div (val_main_v20 (F := Ideal) x0 x1 x2 i) countLit = _
  rw [sum_apply]

end Cert.ReferenceIdeal.RefValue

end
-- ==== Proof.lean ====
/-
  A masked binary cross-entropy, averaged over the rows: the kernel and its reference are one function.

  For probabilities `o`, labels `l` (both 16384 × 1024) and an integer source per row, both programs compute
      (∑ over all (i, j) of  -(l · max (log o) (-100) + (1 - l) · max (log (1 + (-o))) (-100)) · w i) / 16384,
  with `w i = 1` where row `i`'s source is `0` or `1` and `0` elsewhere.  The reference adds all positions in one
  reduce.  The kernel walks the rows in 16 tiles of 1024: per tile it sums each row along its columns, sums the row
  sums, and adds that to a running total kept in a scratch block (zeroed at the first tile); after the last tile it
  stores the total divided by 16384, and the host reshapes that `[1, 1]` block to a scalar.

  Over the extended reals the two agree for every input: the only differences are the grouping and order of one sum
  (addition is a commutative monoid there, infinities included), `0 - x` against `-x`, `0 + x` against `x`, and
  `max x c` against `max c x`; both logarithms, the comparison of the sources and the division are the same functions
  on both sides.  So the precondition is never opened.

    frame_Kernel, frame_KernelIdeal   the generated frame runs.
    frame_ReferenceIdeal              the reference's generated run, its result dropped.
    preserves                         the idealization rewrote nothing: `True`.
    algebraic                         the kernel's result is `KernelResult.value` (the running total over the grid, the
                                      write-back of the output block, the host reshape); the reference's last stage is
                                      the same expression (`ReferenceSum.result_eq`); the weight columns are one term.
-/
import proofs.«140188_j44805098832397_1_alg».proof.Defs
import proofs.«140188_j44805098832397_1_alg».proof.Proof.Gen.Kernel
import proofs.«140188_j44805098832397_1_alg».proof.Proof.Gen.Kernel.Frame
import proofs.«140188_j44805098832397_1_alg».proof.Proof.Gen.KernelIdeal
import proofs.«140188_j44805098832397_1_alg».proof.Proof.Gen.KernelIdeal.Frame
import proofs.«140188_j44805098832397_1_alg».proof.Proof.Gen.ReferenceIdeal
import proofs.«140188_j44805098832397_1_alg».proof.Proof.Gen.ReferenceIdeal.Run
import proofs.«140188_j44805098832397_1_alg».proof.Proof.Gen.ReferenceIdeal.Read
import proofs.«140188_j44805098832397_1_alg».proof.Proof.Gen.Pre_finite_inputs
import proofs.«140188_j44805098832397_1_alg».proof.Proof.KernelResult
import proofs.«140188_j44805098832397_1_alg».proof.Proof.ReferenceSum
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The row weights are one term in both programs: the same comparisons of the same integer array. -/
theorem weights_eq (src : (⟨Cert.ReferenceIdeal.S16384, .i32⟩ : BufTy).Contents (Elt Ideal)) :
    Cert.ReferenceIdeal.Read.val_main_v17 (F := Ideal) src = Cert.KernelIdeal.Blocks.rowWeights (F := Ideal) src := rfl

/-- Both runs end at the whole sum divided by the row count, of arguments that agree. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, weights_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
